-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x2 .f32) (main_arg5 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩
abbrev S1x32 : Shape := ⟨2, ![1, 32]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x2, .f32⟩
  | .local _ .vmem, ⟨8, _⟩ => ⟨S5000x2, .f32⟩
  | .local _ .vmem, ⟨9, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x2_S32x2_0_0 : ∀ a, (![0, 0] : Fin 2 → Nat) a + S32x2.size a ≤ S32x2.size a
  h_S32x2 : 0 < S32x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x2_S5000x2_1_0_0_1_n_n_wf : DotDims.WF S5000x32 S32x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x2.size a ≤ S32x2.size a
  hwx1_1 : ∀ i : grid1.Coords, EltTy.bits .f32 = 32 ∨ (Rect.block (s := S32x2) S32x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S100000x2.size a
  hwx1_2 : ∀ i : grid1.Coords, EltTy.bits .f32 = 32 ∨ (Rect.block (s := S100000x2) S5000x2.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x32_S100000x32_1_0_0_1_n_n_wf : DotDims.WF S100000x256 S256x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x2_S100000x2_1_0_0_1_n_n_wf : DotDims.WF S100000x32 S32x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.Stages.lean ====
/-
  The host side of a two-layer graph convolution with self-loops, as whole-array functions.

  The graph has 100000 nodes and 3200000 edges given as a [2, 3200000] array of node numbers: row 0 the
  sources, row 1 the targets. Both programs first append one self-loop n → n per node to each row
  (`ends`: 3300000 entries), count the edges arriving at every node (`deg`, a scatter-add of ones at the
  targets), take dinv = 1/√deg where deg > 0 and 0 elsewhere, and give edge e the coefficient
  dinv[source e] · dinv[target e] (`coef`; a negative node number is read from the end, `wrap`).
  A layer then takes a table h of one row per node, forms for every edge the row h[source e] · coef e, adds
  the rows of the edges that arrive at a node into that node's row, and adds a bias row (`agg32` for rows of
  width 32, `agg2` for width 2); between the two layers sits a rectifier (`relu32`).

  Every definition below is the printed operations of those lines, in their order, applied to the arrays they
  read: nothing is re-arranged. The two programs differ only in how the table h that enters a layer is
  computed (x·W1, then relu(…)·W2), so both results are `agg2 … (‹second product›) b2` over
  `relu32 (agg32 … (‹first product›) b1)`.
-/
import proofs.«142430_j3221225472589_2_alg».proof.KernelIdeal

noncomputable section

namespace Cert.Gcn

open Idealize.ShloMosaic Cert.KernelIdeal Cert.KernelIdeal.Facts₀

variable {F : FTy → Type} [FloatOps F] [Cert.KernelIdeal.Facts₀]

/-! ## Node numbers of the edges -/

/-- One row of the edge array (the slice starting at `off`) as a vector, followed by the node numbers
    0, 1, …, 99999: the edges' end points at that row, then one self-loop per node. -/
def ends (off : Fin 2 → Nat) (h : S2x3200000.Slices off S1x3200000) (ei : IVec S2x3200000 32) : IVec S3300000 32 :=
  concatenate S3300000 0
    [⟨S3200000, shapeCast _ (extractStridedSlice S1x3200000 off ei h) shapeCasts_S1x3200000_S3200000⟩,
     ⟨S100000, iotaInDim S100000 32 0⟩] concatenates_S3200000_S100000_S3300000_d0

/-- The sources of the 3300000 edges. -/
def srcs (ei : IVec S2x3200000 32) : IVec S3300000 32 := ends ![0, 0] slices_S2x3200000_S1x3200000_0_0 ei

/-- The targets of the 3300000 edges. -/
def dsts (ei : IVec S2x3200000 32) : IVec S3300000 32 := ends ![1, 0] slices_S2x3200000_S1x3200000_1_0 ei

/-- A negative node number counts from the end: v + 100000 where v < 0, v elsewhere. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A vector of node numbers as the [3300000, 1] column a gather or a scatter takes its positions from. -/
def col (v : IVec S3300000 32) : IVec S3300000x1 32 := broadcastInDim S3300000x1 ![0] bcast_S3300000_S3300000x1_0 v

/-! ## The normalisation -/

/-- The number of edges arriving at each node: ones added at the targets into zeros. -/
def deg (d : IVec S3300000 32) : FVec F S100000 .f32 :=
  Host.scatterAdd scatter_S100000_S3300000x1_S3300000_n_0_0_1
    (broadcastInDim S100000 ![] bcast_S_S100000 (constant S_ .f32 0x00000000#32))
    (col d)
    (broadcastInDim S3300000 ![] bcast_S_S3300000 (constant S_ .f32 0x3F800000#32))

/-- 1/√deg where deg > 0, and 0 elsewhere. -/
def dinv (d : IVec S3300000 32) : FVec F S100000 .f32 :=
  select (cmpf .ogt (deg (F := F) d) (broadcastInDim S100000 ![] bcast_S_S100000 (constant S_ .f32 0x00000000#32)))
    (Host.rsqrt (deg (F := F) d))
    (broadcastInDim S100000 ![] bcast_S_S100000 (constant S_ .f32 0x00000000#32))

/-- The coefficient of each edge: dinv at its source times dinv at its target. -/
def coef (s d : IVec S3300000 32) : FVec F S3300000 .f32 :=
  mulf (Host.gather gather_S100000_S3300000x1_S3300000_n_0_n_n_0_1_1 (dinv (F := F) d) (col (wrap s)))
    (Host.gather gather_S100000_S3300000x1_S3300000_n_0_n_n_0_1_1 (dinv (F := F) d) (col (wrap d)))

/-! ## A layer's aggregation -/

/-- Rows of width 32: for every edge the row of `h` at its source times the edge's coefficient, added into the
    row of its target; then the bias row `b` added to every row. -/
def agg32 (s d : IVec S3300000 32) (cf : FVec F S3300000 .f32) (h : FVec F S100000x32 .f32) (b : FVec F S32 .f32) :
    FVec F S100000x32 .f32 :=
  addf
    (Host.scatterAdd scatter_S100000x32_S3300000x1_S3300000x32_1_0_0_1
      (broadcastInDim S100000x32 ![] bcast_S_S100000x32 (constant S_ .f32 0x00000000#32))
      (col d)
      (mulf (Host.gather gather_S100000x32_S3300000x1_S3300000x32_1_0_n_n_0_1_132 h (col (wrap s)))
        (broadcastInDim S3300000x32 ![0, 1] bcast_S3300000x1_S3300000x32_0_1
          (broadcastInDim S3300000x1 ![0] bcast_S3300000_S3300000x1_0 cf))))
    (broadcastInDim S100000x32 ![0, 1] bcast_S1x32_S100000x32_0_1 (broadcastInDim S1x32 ![1] bcast_S32_S1x32_1 b))

/-- The rectifier between the layers: the maximum with 0, entry by entry. -/
def relu32 (z : FVec F S100000x32 .f32) : FVec F S100000x32 .f32 :=
  maximumf z (broadcastInDim S100000x32 ![] bcast_S_S100000x32 (constant S_ .f32 0x00000000#32))

/-- Rows of width 2: the same aggregation for the second layer. -/
def agg2 (s d : IVec S3300000 32) (cf : FVec F S3300000 .f32) (h : FVec F S100000x2 .f32) (b : FVec F S2 .f32) :
    FVec F S100000x2 .f32 :=
  addf
    (Host.scatterAdd scatter_S100000x2_S3300000x1_S3300000x2_1_0_0_1
      (broadcastInDim S100000x2 ![] bcast_S_S100000x2 (constant S_ .f32 0x00000000#32))
      (col d)
      (mulf (Host.gather gather_S100000x2_S3300000x1_S3300000x2_1_0_n_n_0_1_12 h (col (wrap s)))
        (broadcastInDim S3300000x2 ![0, 1] bcast_S3300000x1_S3300000x2_0_1
          (broadcastInDim S3300000x1 ![0] bcast_S3300000_S3300000x1_0 cf))))
    (broadcastInDim S100000x2 ![0, 1] bcast_S1x2_S100000x2_0_1 (broadcastInDim S1x2 ![1] bcast_S2_S1x2_1 b))

/-! ## The whole network around its two products -/

/-- The result of the network from the edge array, the two bias vectors, and the two products given as
    functions: `p1` the first layer's product (a table of width 32), `p2` the second layer's product of the
    rectified first layer with the second weight matrix (a table of width 2). -/
def network (ei : IVec S2x3200000 32) (b1 : FVec F S32 .f32) (b2 : FVec F S2 .f32)
    (p1 : FVec F S100000x32 .f32) (p2 : FVec F S100000x32 .f32 → FVec F S100000x2 .f32) : FVec F S100000x2 .f32 :=
  agg2 (srcs ei) (dsts ei) (coef (srcs ei) (dsts ei))
    (p2 (relu32 (agg32 (srcs ei) (dsts ei) (coef (srcs ei) (dsts ei)) p1 b1))) b2

end Cert.Gcn

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Products.lean ====
/-
  The products of the two layers, entry by entry over the extended reals.

  `matProd A B` is the matrix product of an [a, K] array with a [K, b] array: entry (r, q) is ∑ k, A[r, k] · B[k, q].
  The kernel computes it tile by tile: at one grid point its body takes 5000 rows of A and all of B, changes both to
  bf16 (the identity on extended reals) and multiplies them into a zero accumulator. The reference computes it by one
  dot_general of the whole arrays. All four operations carry the dimension numbers "contract axis 1 of the left operand
  with axis 0 of the right one", so each entry of each of them is that same finite sum (the order of a finite sum over
  one index set does not matter: the sum is re-indexed by the bijection between the contraction's index set and Fin K,
  not re-arranged).
-/
import proofs.«142430_j3221225472589_2_alg».proof.KernelIdeal
import proofs.«142430_j3221225472589_2_alg».proof.ReferenceIdeal
import proofs.«142430_j3221225472589_2_alg».proof.Proof.Gen.KernelIdeal.Skeleton
import proofs.«142430_j3221225472589_2_alg».proof.Proof.LibRowLayers

noncomputable section

namespace Cert.Gcn

open Idealize.ShloMosaic Idealize.ShloMosaic.ValueIdx Cert.RowLayers

/-! ## The whole-array product -/

/-- The matrix product of an [a, K] array and a [K, b] array over the extended reals, entry by entry. -/
def matProd {a K b : ℕ} (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem matProd_apply {a K b : ℕ} (A : (⟨2, ![a, K]⟩ : Shape).Idx → EReal) (B : (⟨2, ![K, b]⟩ : Shape).Idx → EReal)
    (p : Fin a) (q : Fin b) : matProd A B (ix2 p q) = ∑ k : Fin K, A (ix2 p k) * B (ix2 k q) := rfl

/-! ## The printed dimension numbers say "rows times columns" -/

section Tiles
variable [Cert.KernelIdeal.Facts₀]

/-- The first layer's tile product: [5000, 256] × [256, 32]. -/
theorem rtc_tile1 : RowsTimesCols (a := 5000) (K := 256) (b := 32) Cert.KernelIdeal.dot_S5000x256_S256x32_S5000x32_1_0_0_1_n_n where
  rank := rfl
  size := rfl
  lhs0 _ _ := rfl
  lhs1 j q := DotDims.lhsIdx_val_of_single _ (cl := 1) rfl j q
  rhs0 j q := DotDims.rhsIdx_val_of_single _ (cr := 0) rfl j q
  rhs1 _ _ := rfl

/-- The second layer's tile product: [5000, 32] × [32, 2]. -/
theorem rtc_tile2 : RowsTimesCols (a := 5000) (K := 32) (b := 2) Cert.KernelIdeal.dot_S5000x32_S32x2_S5000x2_1_0_0_1_n_n where
  rank := rfl
  size := rfl
  lhs0 _ _ := rfl
  lhs1 j q := DotDims.lhsIdx_val_of_single _ (cl := 1) rfl j q
  rhs0 j q := DotDims.rhsIdx_val_of_single _ (cr := 0) rfl j q
  rhs1 _ _ := rfl

end Tiles

section Whole
variable [Cert.ReferenceIdeal.Facts₀]

/-- The first layer's whole product: [100000, 256] × [256, 32]. -/
theorem rtc_whole1 : RowsTimesCols (a := 100000) (K := 256) (b := 32) Cert.ReferenceIdeal.dot_S100000x256_S256x32_S100000x32_1_0_0_1_n_n where
  rank := rfl
  size := rfl
  lhs0 _ _ := rfl
  lhs1 j q := DotDims.lhsIdx_val_of_single _ (cl := 1) rfl j q
  rhs0 j q := DotDims.rhsIdx_val_of_single _ (cr := 0) rfl j q
  rhs1 _ _ := rfl

/-- The second layer's whole product: [100000, 32] × [32, 2]. -/
theorem rtc_whole2 : RowsTimesCols (a := 100000) (K := 32) (b := 2) Cert.ReferenceIdeal.dot_S100000x32_S32x2_S100000x2_1_0_0_1_n_n where
  rank := rfl
  size := rfl
  lhs0 _ _ := rfl
  lhs1 j q := DotDims.lhsIdx_val_of_single _ (cl := 1) rfl j q
  rhs0 j q := DotDims.rhsIdx_val_of_single _ (cr := 0) rfl j q
  rhs1 _ _ := rfl

/-! ## The reference's products -/

/-- The reference's first dot_general is the whole product. -/
theorem host_product1 (x : FVec Ideal Cert.ReferenceIdeal.S100000x256 .f32) (w : FVec Ideal Cert.ReferenceIdeal.S256x32 .f32) :
    Host.dotGeneral (F := Ideal) Cert.ReferenceIdeal.dot_S100000x256_S256x32_S100000x32_1_0_0_1_n_n none x w = matProd x w := by
  funext i
  obtain ⟨p, q, rfl⟩ : ∃ (p : Fin 100000) (q : Fin 32), i = ix2 p q := ⟨i 0, i 1, eq_ix2 i⟩
  exact congrFun (rowOf_dotGeneral rtc_whole1 none x w p) q

/-- The reference's second dot_general is the whole product. -/
theorem host_product2 (x : FVec Ideal Cert.ReferenceIdeal.S100000x32 .f32) (w : FVec Ideal Cert.ReferenceIdeal.S32x2 .f32) :
    Host.dotGeneral (F := Ideal) Cert.ReferenceIdeal.dot_S100000x32_S32x2_S100000x2_1_0_0_1_n_n none x w = matProd x w := by
  funext i
  obtain ⟨p, q, rfl⟩ : ∃ (p : Fin 100000) (q : Fin 2), i = ix2 p q := ⟨i 0, i 1, eq_ix2 i⟩
  exact congrFun (rowOf_dotGeneral rtc_whole2 none x w p) q

end Whole

/-! ## The kernel's tile products -/

section TileValues
variable [Cert.KernelIdeal.Facts₀]

/-- One tile of the first layer: entry (p, q) of what the body stores is ∑ k, x[p, k] · w[k, q] of the tile's 5000 rows
    `x` and the whole weight matrix `w`. -/
theorem tile1_apply (x : Vec Ideal Cert.KernelIdeal.S5000x256 .f32) (w : Vec Ideal Cert.KernelIdeal.S256x32 .f32)
    (p : Fin 5000) (q : Fin 32) :
    Cert.KernelIdeal.Gen.k0_pay1 (F := Ideal) x w (ix2 p q) = ∑ k : Fin 256, x (ix2 p k) * w (ix2 k q) := by
  unfold Cert.KernelIdeal.Gen.k0_pay1
  exact congrFun (rowOf_matmul_zero rtc_tile1 none _ _ p) q

/-- One tile of the second layer (the body first re-views its 5000 rows at their own shape, which changes nothing). -/
theorem tile2_apply (x : Vec Ideal Cert.KernelIdeal.S5000x32 .f32) (w : Vec Ideal Cert.KernelIdeal.S32x2 .f32)
    (p : Fin 5000) (q : Fin 2) :
    Cert.KernelIdeal.Gen.k1_pay1 (F := Ideal) x w (ix2 p q) = ∑ k : Fin 32, x (ix2 p k) * w (ix2 k q) := by
  unfold Cert.KernelIdeal.Gen.k1_pay1
  refine (congrFun (rowOf_matmul_zero rtc_tile2 none _ _ p) q).trans ?_
  refine Finset.sum_congr rfl fun k _ => ?_
  show shapeCast Cert.KernelIdeal.S5000x32 x Cert.KernelIdeal.Facts₀.shapeCasts_S5000x32_S5000x32 (ix2 p k) * w (ix2 k q) = _
  rw [shapeCast_self]

end TileValues

end Cert.Gcn

end
-- ==== Proof.ReferenceValue.lean ====
/-
  The reference's result is the network around two whole matrix products.

  The reference's @main is the same line of host operations as the kernel's program, with a dot_general where the
  kernel's program launches a region. Its run ends with the result buffer at the composition of those operations
  applied to the argument arrays; read in their order that composition is `network` (Stages.lean) around the
  dot_general of x with W1 and the dot_general of the rectified first layer with W2. Over the extended reals each
  dot_general is the whole product `matProd` (Products.lean).
-/
import proofs.«142430_j3221225472589_2_alg».proof.Proof.ReferenceRun
import proofs.«142430_j3221225472589_2_alg».proof.Proof.Gen.KernelIdeal
import proofs.«142430_j3221225472589_2_alg».proof.Proof.Stages
import proofs.«142430_j3221225472589_2_alg».proof.Proof.Products

noncomputable section

namespace Cert.Gcn

open Idealize.ShloMosaic Idealize.ShloMosaic.TcCoe Idealize.SL.Sem
open Cert.ReferenceIdeal

/-- The operations of the reference's @main, composed, are the network around its two dot_generals: the same
    operations in the same order, for any float values. -/
theorem reference_term {F : FTy → Type} [FloatOps F] (m : (ℓ : Loc nD τ sig) → Buf (Elt F) ℓ) (c : Dev nD) :
    Cert.ReferenceIdeal.ValueP.res_main_v64 (F := F) m c
      = network (F := F) (m ((c.tc : Thread nD τ).loc main_arg1)) (m ((c.tc : Thread nD τ).loc main_arg3))
          (m ((c.tc : Thread nD τ).loc main_arg5))
          (Host.dotGeneral dot_S100000x256_S256x32_S100000x32_1_0_0_1_n_n none
            (m ((c.tc : Thread nD τ).loc main_arg0)) (m ((c.tc : Thread nD τ).loc main_arg2)))
          (fun h => Host.dotGeneral dot_S100000x32_S32x2_S100000x2_1_0_0_1_n_n none h (m ((c.tc : Thread nD τ).loc main_arg4))) :=
  rfl

/-- Over the extended reals the reference's result is the network around the two whole products. -/
theorem reference_value (m : (ℓ : Loc nD τ sig) → Buf (Elt Ideal) ℓ) (c : Dev nD) :
    Cert.ReferenceIdeal.ValueP.res_main_v64 (F := Ideal) m c
      = network (F := Ideal) (m ((c.tc : Thread nD τ).loc main_arg1)) (m ((c.tc : Thread nD τ).loc main_arg3))
          (m ((c.tc : Thread nD τ).loc main_arg5))
          (matProd (a := 100000) (K := 256) (b := 32) (m ((c.tc : Thread nD τ).loc main_arg0)) (m ((c.tc : Thread nD τ).loc main_arg2)))
          (fun h => matProd (a := 100000) (K := 32) (b := 2) h (m ((c.tc : Thread nD τ).loc main_arg4))) := by
  rw [reference_term m c, host_product1]
  exact congrArg (network (F := Ideal) _ _ _ _) (funext fun h => host_product2 h _)

end Cert.Gcn

end
-- ==== Proof.KernelRun.lean ====
/-
  The kernel's program run, with its result read.

  @main of the kernel's program is eight segments: three stretches of host operations, the first region, two
  stretches, the second region, one last stretch. The generated frame module names the buffer contents at every segment
  boundary (W0 at launch, … , W8 at the return) and launches the segments; its frame theorem then reads only the six
  argument buffers off W8. Here the same launch is read at one more buffer: the result's, which ends at
  W8 at that buffer. What W8 holds there is the subject of KernelValue.lean.
-/
import proofs.«142430_j3221225472589_2_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents W8 and the six argument arrays as launched: the segments' launch,
    the last thread state (every unscoped buffer at W8) read against the final state at the result's buffer and at
    each argument's. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.Regions.lean ====
/-
  From a region's tiles to its result array.

  Each of the two regions runs its body at 20 grid points; point t reads rows [5000·t, 5000·t + 5000) of the table and
  the whole weight matrix, and writes rows [5000·t, 5000·t + 5000) of the result. A tile's entry (p, q) is
  ∑ k, table[5000·t + p, k] · weights[k, q], which is entry (5000·t + p, q) of the whole product, and the 20 blocks
  fill the result's 100000 rows; so the result array, after the region, is the whole product of the two arrays the
  region found in its operands' buffers. Stated for any contents `V` of the buffers at the region's entry.
-/
import proofs.«142430_j3221225472589_2_alg».proof.Proof.Gen.KernelIdeal.Frame
import proofs.«142430_j3221225472589_2_alg».proof.Proof.Products
import Idealize.ShloMosaic.Lib.Pipeline.Value

set_option maxRecDepth 16384

noncomputable section

namespace Cert.Gcn

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The bodies load and store their whole staging buffers: through the rectangle at offsets (0, 0). -/
theorem zero_offsets : (![0, 0] : Fin 2 → Nat) = fun _ => 0 := funext fun a => by fin_cases a <;> rfl

/-! ## Region 1: the first layer's product, tile by tile -/

/-- The index maps of region 1, decided over its 20 grid points: point t takes rows [5000·t, 5000·t + 5000) of the
    table and writes the same rows of the result; the weight matrix is taken whole at every point. -/
theorem tiles1 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- For any two arrays A [100000, 256] and B [256, 32]: the sum a tile's entry (p, q) takes over point t's block of A
    and the whole of B is entry (5000·t + p, q) of the whole product of A and B. -/
theorem tile_in_whole1 (t : Fin cfg0.N) (A : S100000x256.Idx → EReal) (B : S256x32.Idx → EReal) (p : Fin 5000) (q : Fin 32) :
    (∑ k : Fin 256, A (((cfg0.win 0).blk t).view.emb (ix2 p k)) * B (((cfg0.win 1).blk t).view.emb (ix2 k q)))
      = matProd (a := 100000) (K := 256) (b := 32) A B (((cfg0.win 2).blk t).view.emb (ix2 p q)) := by
  obtain ⟨e0, e1, e2, e3, e4, e5⟩ := tiles1 t
  show _ = ∑ k : Fin 256, A (ix2 ((((cfg0.win 2).blk t).view.emb (ix2 p q)) 0) k)
        * B (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 32 + 1 * q.val = win0_2.index t (1 : Fin 2) * 32 + 1 * q.val; omega
  exact congrArg₂ (fun u v => A u * B v) h0 h1

/-- What grid point t writes back is its block of the whole product of the two arrays the region finds in its
    operands' buffers: entry (p, q) of the tile is ∑ k of row 5000·t + p of the table times column q of the weights. -/
theorem flushed1 (c : Dev nD) (t : Fin cfg0.N) :
    (dat0 V c).flushed 2 t
      = ((cfg0.win 2).blk t).view.read (Elt Ideal) (matProd (a := 100000) (K := 256) (b := 32) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x32) zero_offsets]
  funext j
  obtain ⟨p, q, rfl⟩ : ∃ (p : Fin 5000) (q : Fin 32), j = ix2 p q := ⟨j 0, j 1, eq_ix2 j⟩
  refine (tile1_apply (iblk0 V c 0 t) (iblk0 V c 1 t) p q).trans ?_
  exact tile_in_whole1 t (V c main_arg0) (V c main_arg2) p q

/-- An entry of the result is in point t's block iff each coordinate is in the block's range on its axis. -/
theorem mem_tile1 (t : Fin cfg0.N) (i : S100000x32.Idx) :
    i ∈ ((cfg0.win 2).blk t).view.set
      ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- The 20 blocks of 5000 rows fill the 100000 rows: row r is in the block of point r / 5000. -/
theorem cover1 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, e4, e5⟩ := tiles1 t
  refine ⟨t, flush0_2 t, ?_⟩
  rw [mem_tile1]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE RESULT ARRAY of region 1 after its 20 points: the whole product of the arrays found in its operands' buffers. -/
theorem array1 (c : Dev nD) :
    (dat0 V c).arrAt 2 cfg0.N = matProd (a := 100000) (K := 256) (b := 32) (V c main_arg0) (V c main_arg2) :=
  (dat0 V c).arrAt_eq_of_cover 2 _ (fun t _ => flushed1 V c t) cover1

/-! ## Region 2: the second layer's product, tile by tile -/

/-- The index maps of region 2, decided over its 20 grid points: point t takes rows [5000·t, 5000·t + 5000) of the
    table and writes the same rows of the result; the weight matrix is taken whole at every point. -/
theorem tiles2 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- For any two arrays A [100000, 32] and B [32, 2]: the sum a tile's entry (p, q) takes over point t's block of A
    and the whole of B is entry (5000·t + p, q) of the whole product of A and B. -/
theorem tile_in_whole2 (t : Fin cfg1.N) (A : S100000x32.Idx → EReal) (B : S32x2.Idx → EReal) (p : Fin 5000) (q : Fin 2) :
    (∑ k : Fin 32, A (((cfg1.win 0).blk t).view.emb (ix2 p k)) * B (((cfg1.win 1).blk t).view.emb (ix2 k q)))
      = matProd (a := 100000) (K := 32) (b := 2) A B (((cfg1.win 2).blk t).view.emb (ix2 p q)) := by
  obtain ⟨e0, e1, e2, e3, e4, e5⟩ := tiles2 t
  show _ = ∑ k : Fin 32, A (ix2 ((((cfg1.win 2).blk t).view.emb (ix2 p q)) 0) k)
        * B (ix2 k ((((cfg1.win 2).blk t).view.emb (ix2 p q)) 1))
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 32 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 32 + 1 * k.val = k.val; omega
    | ⟨1, _⟩ => show win1_1.index t (1 : Fin 2) * 2 + 1 * q.val = win1_2.index t (1 : Fin 2) * 2 + 1 * q.val; omega
  exact congrArg₂ (fun u v => A u * B v) h0 h1

/-- What grid point t writes back is its block of the whole product of the two arrays the region finds in its
    operands' buffers: entry (p, q) of the tile is ∑ k of row 5000·t + p of the table times column q of the weights. -/
theorem flushed2 (c : Dev nD) (t : Fin cfg1.N) :
    (dat1 V c).flushed 2 t
      = ((cfg1.win 2).blk t).view.read (Elt Ideal) (matProd (a := 100000) (K := 32) (b := 2) (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x32) zero_offsets, View.ld_unit_zero (S := S32x2) zero_offsets]
  funext j
  obtain ⟨p, q, rfl⟩ : ∃ (p : Fin 5000) (q : Fin 2), j = ix2 p q := ⟨j 0, j 1, eq_ix2 j⟩
  refine (tile2_apply (iblk1 V c 0 t) (iblk1 V c 1 t) p q).trans ?_
  exact tile_in_whole2 t (V c main_v47) (V c main_arg4) p q

/-- An entry of the result is in point t's block iff each coordinate is in the block's range on its axis. -/
theorem mem_tile2 (t : Fin cfg1.N) (i : S100000x2.Idx) :
    i ∈ ((cfg1.win 2).blk t).view.set
      ↔ ∀ a : Fin 2, win1_2.index t a * S5000x2.size a ≤ (i a).val ∧ (i a).val < win1_2.index t a * S5000x2.size a + S5000x2.size a := by
  show i ∈ ((View.whole main_v48).slice (win1_2.rect t)).set ↔ _
  rw [View.set_slice_whole, Rect.mem_set_unit]
  exact Iff.rfl

/-- The 20 blocks of 5000 rows fill the 100000 rows: row r is in the block of point r / 5000. -/
theorem cover2 (i : S100000x2.Idx) :
    ∃ t : Fin cfg1.N, (cfg1.win 2).flush t = true ∧ i ∈ ((cfg1.win 2).blk t).view.set := by
  have hi0 : (i 0).val < 100000 := (i 0).isLt
  have hi1 : (i 1).val < 2 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, e4, e5⟩ := tiles2 t
  refine ⟨t, flush1_2 t, ?_⟩
  rw [mem_tile2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 2 ≤ (i 1).val ∧ (i 1).val < win1_2.index t (1 : Fin 2) * 2 + 2; omega

/-- THE RESULT ARRAY of region 2 after its 20 points: the whole product of the arrays found in its operands' buffers. -/
theorem array2 (c : Dev nD) :
    (dat1 V c).arrAt 2 cfg1.N = matProd (a := 100000) (K := 32) (b := 2) (V c main_v47) (V c main_arg4) :=
  (dat1 V c).arrAt_eq_of_cover 2 _ (fun t _ => flushed2 V c t) cover2

end Cert.Gcn

end
-- ==== Proof.KernelValue.lean ====
/-
  What the kernel's program leaves in its result buffer.

  The buffer contents at the eight segment boundaries of @main are W0 (launch), W1, W2, W3 (after the three stretches
  that compute the edges' end points and coefficients), W4 (after the first region), W5, W6 (after the first layer's
  aggregation and the rectifier), W7 (after the second region) and W8 (after the second layer's aggregation).
  Walking them in order:
    at W3 the buffers %5, %6 and %29 hold the sources, the targets and the coefficients of the 3300000 edges, as
    functions of the edge array, and the arguments are untouched;
    the first region leaves the whole product x·W1 in %30 and touches nothing else;
    at W6 the buffer %47 holds the rectified aggregation of that product;
    the second region leaves the whole product of %47 with W2 in %48;
    at W8 the result %64 holds the second aggregation.
  Together: the result is `network` (Stages.lean) around the two whole products — the same function of the arguments
  the reference computes.
-/
import proofs.«142430_j3221225472589_2_alg».proof.Proof.Gen.KernelIdeal.Frame
import proofs.«142430_j3221225472589_2_alg».proof.Proof.Stages
import proofs.«142430_j3221225472589_2_alg».proof.Proof.Regions
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen

/-! ## The host stretches, for any float values -/

section Host
variable {F : FTy → Type} [FloatOps F]
variable (m : (ℓ : Loc nD τ sig) → Buf (Elt F) ℓ) (ρ : Dev nD → PrngReg) (c : Dev nD)

/-- After the first three stretches %5 holds the edges' sources. -/
theorem W3_srcs : W3 m ρ c (Proc.devRef .tc main_v5) = srcs (m ((c.tc : Thread nD τ).loc main_arg1)) := by
  show after hostOps0_2 (after hostOps0_1 (after hostOps0 (W0 m ρ c))) (Proc.devRef .tc main_v5) = _
  after_results_simp
  rfl

/-- After the first three stretches %6 holds the edges' targets. -/
theorem W3_dsts : W3 m ρ c (Proc.devRef .tc main_v6) = dsts (m ((c.tc : Thread nD τ).loc main_arg1)) := by
  show after hostOps0_2 (after hostOps0_1 (after hostOps0 (W0 m ρ c))) (Proc.devRef .tc main_v6) = _
  after_results_simp
  rfl

/-- After the first three stretches %29 holds the edges' coefficients. -/
theorem W3_coef : W3 m ρ c (Proc.devRef .tc main_v29)
    = coef (F := F) (srcs (m ((c.tc : Thread nD τ).loc main_arg1))) (dsts (m ((c.tc : Thread nD τ).loc main_arg1))) := by
  show after hostOps0_2 (after hostOps0_1 (after hostOps0 (W0 m ρ c))) (Proc.devRef .tc main_v29) = _
  after_results_simp
  rfl

/-- The first three stretches write no argument. -/
theorem W3_arg (b : Ref sig .tc) (hb : b = main_arg0 ∨ b = main_arg2 ∨ b = main_arg3 ∨ b = main_arg4 ∨ b = main_arg5) :
    W3 m ρ c (Proc.devRef .tc b) = m ((c.tc : Thread nD τ).loc b) := by
  show after hostOps0_2 (after hostOps0_1 (after hostOps0 (W0 m ρ c))) (Proc.devRef .tc b) = _
  rcases hb with rfl | rfl | rfl | rfl | rfl <;> (after_results_simp <;> rfl)

/-- The first region writes only its result %30. -/
theorem W4_keep (b : Ref sig .tc) (hb : ∀ w, Pipeline.arrRef spec0 w ≠ b) :
    W4 m ρ c (Proc.devRef .tc b) = W3 m ρ c (Proc.devRef .tc b) := W4_of_ne m ρ c b hb

/-- The two stretches between the regions: %47 is the rectified aggregation of the table in %30. -/
theorem W6_hidden : W6 m ρ c (Proc.devRef .tc main_v47)
    = relu32 (agg32 (W4 m ρ c (Proc.devRef .tc main_v5)) (W4 m ρ c (Proc.devRef .tc main_v6)) (W4 m ρ c (Proc.devRef .tc main_v29))
        (W4 m ρ c (Proc.devRef .tc main_v30)) (W4 m ρ c (Proc.devRef .tc main_arg3))) := by
  show after hostOps1_1 (after hostOps1 (W4 m ρ c)) (Proc.devRef .tc main_v47) = _
  after_results_simp
  rfl

/-- They write none of the buffers the second layer reads besides %47. -/
theorem W6_keep (b : Ref sig .tc) (hb : b = main_v5 ∨ b = main_v6 ∨ b = main_v29 ∨ b = main_arg4 ∨ b = main_arg5) :
    W6 m ρ c (Proc.devRef .tc b) = W4 m ρ c (Proc.devRef .tc b) := by
  show after hostOps1_1 (after hostOps1 (W4 m ρ c)) (Proc.devRef .tc b) = _
  rcases hb with rfl | rfl | rfl | rfl | rfl <;> (after_results_simp <;> rfl)

/-- The last stretch: the result %64 is the aggregation of the table in %48. -/
theorem W8_result : W8 m ρ c (Proc.devRef .tc main_v64)
    = agg2 (W7 m ρ c (Proc.devRef .tc main_v5)) (W7 m ρ c (Proc.devRef .tc main_v6)) (W7 m ρ c (Proc.devRef .tc main_v29))
        (W7 m ρ c (Proc.devRef .tc main_v48)) (W7 m ρ c (Proc.devRef .tc main_arg5)) := by
  show after hostOps2 (W7 m ρ c) (Proc.devRef .tc main_v64) = _
  after_results_simp
  rfl

end Host

/-! ## The two regions, and the walk, over the extended reals -/

section Ideal
variable (m : (ℓ : Loc nD τ sig) → Buf (Elt Ideal) ℓ) (ρ : Dev nD → PrngReg) (c : Dev nD)

/-- The first region leaves the whole product x·W1 in %30. -/
theorem W4_product : W4 m ρ c (Proc.devRef .tc main_v30)
    = matProd (a := 100000) (K := 256) (b := 32) (m ((c.tc : Thread nD τ).loc main_arg0)) (m ((c.tc : Thread nD τ).loc main_arg2)) := by
  refine (W4_arr m ρ c 2).trans ((array1 (V3 m ρ) c).trans ?_)
  show matProd (a := 100000) (K := 256) (b := 32) (W3 m ρ c (Proc.devRef .tc main_arg0)) (W3 m ρ c (Proc.devRef .tc main_arg2)) = _
  rw [W3_arg m ρ c main_arg0 (.inl rfl), W3_arg m ρ c main_arg2 (.inr (.inl rfl))]

/-- The second region leaves the whole product of %47 with W2 in %48. -/
theorem W7_product : W7 m ρ c (Proc.devRef .tc main_v48)
    = matProd (a := 100000) (K := 32) (b := 2) (W6 m ρ c (Proc.devRef .tc main_v47)) (m ((c.tc : Thread nD τ).loc main_arg4)) := by
  refine (W7_arr m ρ c 2).trans ((array2 (V6 m ρ) c).trans ?_)
  show matProd (a := 100000) (K := 32) (b := 2) (W6 m ρ c (Proc.devRef .tc main_v47)) (W6 m ρ c (Proc.devRef .tc main_arg4)) = _
  rw [W6_keep m ρ c main_arg4 (.inr (.inr (.inr (.inl rfl)))), W4_keep m ρ c main_arg4 (by decide),
    W3_arg m ρ c main_arg4 (.inr (.inr (.inr (.inl rfl))))]

/-- A buffer neither region nor the stretches between them write, read at the last region's exit, is what the
    first three stretches left in it. -/
theorem W7_back (b : Ref sig .tc) (hb : b = main_v5 ∨ b = main_v6 ∨ b = main_v29 ∨ b = main_arg4 ∨ b = main_arg5)
    (h1 : ∀ w, Pipeline.arrRef spec1 w ≠ b) (h0 : ∀ w, Pipeline.arrRef spec0 w ≠ b) :
    W7 m ρ c (Proc.devRef .tc b) = W3 m ρ c (Proc.devRef .tc b) :=
  (W7_of_ne m ρ c b h1).trans ((W6_keep m ρ c b hb).trans (W4_keep m ρ c b h0))

/-- THE RESULT of the kernel's program: the network around the two whole products. -/
theorem kernel_value : W8 m ρ c (Proc.devRef .tc main_v64)
    = network (F := Ideal) (m ((c.tc : Thread nD τ).loc main_arg1)) (m ((c.tc : Thread nD τ).loc main_arg3))
        (m ((c.tc : Thread nD τ).loc main_arg5))
        (matProd (a := 100000) (K := 256) (b := 32) (m ((c.tc : Thread nD τ).loc main_arg0)) (m ((c.tc : Thread nD τ).loc main_arg2)))
        (fun h => matProd (a := 100000) (K := 32) (b := 2) h (m ((c.tc : Thread nD τ).loc main_arg4))) := by
  rw [W8_result, W7_product, W6_hidden, W4_product,
    W7_back m ρ c main_v5 (.inl rfl) (by decide) (by decide),
    W7_back m ρ c main_v6 (.inr (.inl rfl)) (by decide) (by decide),
    W7_back m ρ c main_v29 (.inr (.inr (.inl rfl))) (by decide) (by decide),
    W7_back m ρ c main_arg5 (.inr (.inr (.inr (.inr rfl)))) (by decide) (by decide),
    W4_keep m ρ c main_v5 (by decide), W4_keep m ρ c main_v6 (by decide), W4_keep m ρ c main_v29 (by decide),
    W4_keep m ρ c main_arg3 (by decide),
    W3_srcs, W3_dsts, W3_coef, W3_arg m ρ c main_arg3 (.inr (.inr (.inl rfl))),
    W3_arg m ρ c main_arg5 (.inr (.inr (.inr (.inr rfl))))]
  rfl

end Ideal

end Cert.Gcn

end
-- ==== Proof.lean ====
/-
  A two-layer graph convolution: the kernel's program against its reference, over the extended reals.

  Both programs take node features x [100000, 256], an edge array [2, 3200000] of node numbers, weights W1 [256, 32],
  W2 [32, 2] and biases b1 [32], b2 [2], and compute
      out = Â · relu(Â · (x·W1) + b1) · W2 + b2,
  where Â aggregates along the edges with one self-loop per node added and the coefficient
  dinv[source] · dinv[target] on every edge, dinv = 1/√degree where the degree is positive and 0 elsewhere
  (each aggregation is: gather the table's rows at the sources, scale by the coefficients, scatter-add at the
  targets; the product with W2 is taken before the second aggregation).
  The two programs spell every one of those steps with the same host operations in the same order, except the two
  matrix products: the reference takes each as one dot_general of the whole arrays, the kernel's program as a region
  of 20 grid points, each multiplying 5000 rows of the table (changed to bf16, which is the identity on extended
  reals) with the whole weight matrix into a zero accumulator. Entry (r, q) of either is ∑ k, table[r, k] · W[k, q],
  the same finite sum over the same index set; the 20 blocks of 5000 rows fill the 100000 rows. So both results are
  one function of the arguments, `network` around the two whole products, with no law of arithmetic used beyond
  re-indexing a finite sum by a bijection: the inputs' finiteness is not needed, and the claim's precondition is never
  opened.

  Modules: Stages (the host operations as whole-array functions), LibRowLayers and Products (a product's entries),
  Regions (from a region's tiles to its result array), KernelRun (the kernel's program run with its result read) and
  KernelValue (the walk through the segment boundaries), ReferenceRun (the reference's run) and ReferenceValue (its
  result as the same function). The idealization rewrote no operation, so its conjunct is `True`.
-/
import proofs.«142430_j3221225472589_2_alg».proof.Defs
import proofs.«142430_j3221225472589_2_alg».proof.Proof.Gen.Kernel
import proofs.«142430_j3221225472589_2_alg».proof.Proof.Gen.Kernel.Skeleton
import proofs.«142430_j3221225472589_2_alg».proof.Proof.Gen.Kernel.Launch
import proofs.«142430_j3221225472589_2_alg».proof.Proof.Gen.Kernel.Points
import proofs.«142430_j3221225472589_2_alg».proof.Proof.Gen.Kernel.Frame
import proofs.«142430_j3221225472589_2_alg».proof.Proof.Gen.KernelIdeal
import proofs.«142430_j3221225472589_2_alg».proof.Proof.Gen.KernelIdeal.Skeleton
import proofs.«142430_j3221225472589_2_alg».proof.Proof.Gen.KernelIdeal.Launch
import proofs.«142430_j3221225472589_2_alg».proof.Proof.Gen.KernelIdeal.Points
import proofs.«142430_j3221225472589_2_alg».proof.Proof.Gen.KernelIdeal.Frame
import proofs.«142430_j3221225472589_2_alg».proof.Proof.Gen.ReferenceIdeal
import proofs.«142430_j3221225472589_2_alg».proof.Proof.Gen.Pre_finite_inputs
import proofs.«142430_j3221225472589_2_alg».proof.Proof.ReferenceRun
import proofs.«142430_j3221225472589_2_alg».proof.Proof.ReferenceValue
import proofs.«142430_j3221225472589_2_alg».proof.Proof.KernelRun
import proofs.«142430_j3221225472589_2_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the result buffer at `network` around the two
    whole products of the (kernel's) arguments. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (Cert.Gcn.matProd (a := 100000) (K := 256) (b := 32)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (fun h => Cert.Gcn.matProd (a := 100000) (K := 32) (b := 2) h
        (m ((c.tc : Thread Cert.KernelIdeal.nD Cert.KernelIdeal.τ).loc Cert.KernelIdeal.main_arg4))), ?_, ?_⟩
  · exact (θ_run Cert.KernelIdeal.defs _ _).mono
      (fun _ h c => ⟨(h c).1.trans (Cert.Gcn.kernel_value m ρ c), (h c).2⟩)
      (Cert.Gcn.KernelRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.Gcn.reference_value m' c, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
